-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x224x224 : Shape := ⟨4, ![32, 64, 224, 224]⟩
abbrev S_ : Shape := ⟨0, ![]⟩

class Facts : Prop where
  bcast_S_S32x64x224x224 : S_.BroadcastsInDim S32x64x224x224 (![] : Fin 0 → Fin S32x64x224x224.rank)
  reducesTo_S32x64x224x224_S_d0_1_2_3 : S32x64x224x224.ReducesTo [0, 1, 2, 3] S_
  h_S_ : 0 < S_.numel

variable [Facts]

def fn {F : FTy → Type} [FloatOps F] (main_arg0 : FVec F S32x64x224x224 .f32) : IVec S_ 1 :=
  let main_v0 : FVec F S32x64x224x224 .f32 := Host.absf main_arg0
  let main_cst : FVec F S_ .f32 := constant S_ .f32 0x7F800000#32
  let main_v1 : FVec F S32x64x224x224 .f32 := broadcastInDim S32x64x224x224 ![] bcast_S_S32x64x224x224 main_cst
  let main_v2 : IVec S32x64x224x224 1 := cmpf .olt main_v0 main_v1
  let main_c : IVec S_ 1 := constantI S_ 1 1#1
  let main_v3 : IVec S_ 1 := (fun x v => Host.reduce IntOp.andi x v reducesTo_S32x64x224x224_S_d0_1_2_3 h_S_) main_v2 main_c
  main_v3
-- ==== Kernel.lean ====
abbrev S32x64x224x224 : Shape := ⟨4, ![32, 64, 224, 224]⟩
abbrev S_ : Shape := ⟨0, ![]⟩
abbrev S2048x224x224 : Shape := ⟨3, ![2048, 224, 224]⟩
abbrev S2048x112x2x224 : Shape := ⟨4, ![2048, 112, 2, 224]⟩
abbrev S2048x112x112 : Shape := ⟨3, ![2048, 112, 112]⟩
abbrev S32x112x2x224 : Shape := ⟨4, ![32, 112, 2, 224]⟩
abbrev S32x112x112 : Shape := ⟨3, ![32, 112, 112]⟩
abbrev S32x112x1x224 : Shape := ⟨4, ![32, 112, 1, 224]⟩
abbrev S32x112x224 : Shape := ⟨3, ![32, 112, 224]⟩
abbrev S32x112x112x2 : Shape := ⟨4, ![32, 112, 112, 2]⟩
abbrev S32x64x112x112 : Shape := ⟨4, ![32, 64, 112, 112]⟩

abbrev nBuf : Space → Nat
  | .hbm => 8
  | .vmem => 4
  | .smem => 0
  | _ => 0

abbrev bufTy : (tb : Table) → Fin (tcTables nBuf tb) → BufTy
  | .hbm, ⟨0, _⟩ => ⟨S32x64x224x224, .f32⟩
  | .hbm, ⟨1, _⟩ => ⟨S_, .i32⟩
  | .hbm, ⟨2, _⟩ => ⟨S_, .f32⟩
  | .hbm, ⟨3, _⟩ => ⟨S32x64x224x224, .f32⟩
  | .hbm, ⟨4, _⟩ => ⟨S2048x224x224, .f32⟩
  | .hbm, ⟨5, _⟩ => ⟨S2048x112x2x224, .f32⟩
  | .hbm, ⟨6, _⟩ => ⟨S2048x112x112, .f32⟩
  | .hbm, ⟨7, _⟩ => ⟨S32x64x112x112, .f32⟩
  | .local _ .vmem, ⟨0, _⟩ => ⟨S32x112x2x224, .f32⟩
  | .local _ .vmem, ⟨1, _⟩ => ⟨S32x112x2x224, .f32⟩
  | .local _ .vmem, ⟨2, _⟩ => ⟨S32x112x112, .f32⟩
  | .local _ .vmem, ⟨3, _⟩ => ⟨S32x112x112, .f32⟩
  | _, _ => ⟨S32x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x112x2x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x112x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S32x64x224x224_S32x64x224x224_000_000_000_000 : S32x64x224x224.Pads (![0, 0, 0, 0] : Fin 4 → Nat) ![0, 0, 0, 0] ![0, 0, 0, 0] S32x64x224x224
  h_S_ : 0 < S_.numel
  shapeCasts_S32x64x224x224_S2048x224x224 : S32x64x224x224.ShapeCasts S2048x224x224
  shapeCasts_S2048x224x224_S2048x112x2x224 : S2048x224x224.ShapeCasts S2048x112x2x224
  inb_S32x112x2x224_S32x112x1x224_0_0_0_0 : ∀ a, (![0, 0, 0, 0] : Fin 4 → Nat) a + S32x112x1x224.size a ≤ S32x112x2x224.size a
  h_S32x112x1x224 : 0 < S32x112x1x224.numel
  shapeCasts_S32x112x1x224_S32x112x224 : S32x112x1x224.ShapeCasts S32x112x224
  inb_S32x112x2x224_S32x112x1x224_0_0_1_0 : ∀ a, (![0, 0, 1, 0] : Fin 4 → Nat) a + S32x112x1x224.size a ≤ S32x112x2x224.size a
  shapeCasts_S32x112x224_S32x112x112x2 : S32x112x224.ShapeCasts S32x112x112x2
  reduces_S32x112x112x2_S32x112x112 : S32x112x112x2.Reduces [3] S32x112x112
  inb_S32x112x112_S32x112x112_0_0_0 : ∀ a, (![0, 0, 0] : Fin 3 → Nat) a + S32x112x112.size a ≤ S32x112x112.size a
  h_S32x112x112 : 0 < S32x112x112.numel
  shapeCasts_S2048x112x112_S32x64x112x112 : S2048x112x112.ShapeCasts S32x64x112x112
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x112x2x224.size a ≤ S2048x112x2x224.size a
  hwx0_0 : ∀ i : grid0.Coords, EltTy.bits .f32 = 32 ∨ (Rect.block (s := S2048x112x2x224) S32x112x2x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x112x112.size a ≤ S2048x112x112.size a
  hwx0_1 : ∀ i : grid0.Coords, EltTy.bits .f32 = 32 ∨ (Rect.block (s := S2048x112x112) S32x112x112.size (cc0_transform_1 i) (hinb0_1 i)).WholeWords (EltTy.packing .f32)

variable [Facts₀]

abbrev win0_0 : Pipeline.Window sig grid0 :=
  Pipeline.Window.ofSpec (Memref.whole main_v2) S32x112x2x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S32x112x112.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x224x224 : Shape := ⟨4, ![32, 64, 224, 224]⟩
abbrev S_ : Shape := ⟨0, ![]⟩
abbrev S32x64x112x112 : Shape := ⟨4, ![32, 64, 112, 112]⟩

abbrev nBuf : Space → Nat
  | .hbm => 7
  | .vmem => 0
  | .smem => 0
  | _ => 0

abbrev bufTy : (tb : Table) → Fin (tcTables nBuf tb) → BufTy
  | .hbm, ⟨0, _⟩ => ⟨S32x64x224x224, .f32⟩
  | .hbm, ⟨1, _⟩ => ⟨S_, .i32⟩
  | .hbm, ⟨2, _⟩ => ⟨S_, .f32⟩
  | .hbm, ⟨3, _⟩ => ⟨S32x64x224x224, .f32⟩
  | .hbm, ⟨4, _⟩ => ⟨S_, .f32⟩
  | .hbm, ⟨5, _⟩ => ⟨S_, .f32⟩
  | .hbm, ⟨6, _⟩ => ⟨S32x64x112x112, .f32⟩
  | _, _ => ⟨S32x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  pads_S32x64x224x224_S32x64x224x224_000_000_000_000 : S32x64x224x224.Pads (![0, 0, 0, 0] : Fin 4 → Nat) ![0, 0, 0, 0] ![0, 0, 0, 0] S32x64x224x224
  h_S_ : 0 < S_.numel
  bcast_S_S_ : S_.BroadcastsInDim S_ (![] : Fin 0 → Fin S_.rank)
  reduceWindows_S32x64x224x224_S32x64x112x112_w1s1p0_0_w1s1p0_0_w2s2p0_0_w2s2p0_0 : S32x64x224x224.ReduceWindows (![1, 1, 2, 2] : Fin 4 → Nat) ![1, 1, 2, 2] ![0, 0, 0, 0] ![0, 0, 0, 0] S32x64x112x112

variable [Facts₀]

class Facts : Prop extends Facts₀ where

variable [Facts]
-- ==== Proof.LibPoolWindow.lean ====
/-
  A `reduce_window` whose window is 2 × 2 on the last two axes of a rank-4 array, moved by 2 on both, with no padding:
  non-overlapping 2 × 2 pooling.  Its result at (n, c, h, w) is the left fold of the body, from the initial value, over
  the four operand entries (n, c, 2h + a, 2w + b), visited with b fastest: (0,0), (0,1), (1,0), (1,1).  Generic in the
  extents, the element type and the body.
-/
import Idealize.ShloMosaic.PureOps
import Idealize.ShloMosaic.Lib.ValueIdx

namespace Idealize.ShloMosaic.PoolWindow

open Idealize.ShloMosaic Idealize.ShloMosaic.ValueIdx

variable {α : Type} {N C Hi Wi Ho Wo : Nat}

/-- The operand entry under position (a, b) of the window at result index (n, c, h, w): rows 2h and 2h + 1,
    columns 2w and 2w + 1. -/
def tap (hH : 2 * Ho ≤ Hi) (hW : 2 * Wo ≤ Wi) (n : Fin N) (c : Fin C) (h : Fin Ho) (w : Fin Wo) (a b : Fin 2) :
    (⟨4, ![N, C, Hi, Wi]⟩ : Shape).Idx :=
  ix4 n c ⟨2 * h.val + a.val, by omega⟩ ⟨2 * w.val + b.val, by omega⟩

/-- The window's shape has four positions. -/
theorem window_numel : (⟨4, ![1, 1, 2, 2]⟩ : Shape).numel = 4 := by decide

/-- Position `k` of the window, in row-major order, is (0, 0, k / 2, k % 2). -/
theorem window_pos (k : Fin (⟨4, ![1, 1, 2, 2]⟩ : Shape).numel) (a b : Fin 2) (hk : k.val = a.val * 2 + b.val) :
    (⟨4, ![1, 1, 2, 2]⟩ : Shape).rowMajor.symm k = ix4 (0 : Fin 1) (0 : Fin 1) a b := by
  rw [Equiv.symm_apply_eq]
  apply Fin.ext
  rw [Shape.rowMajor_val_four, hk]
  show _ = ((0 * 1 + 0) * 2 + a.val) * 2 + b.val
  omega

/-- The window's positions, listed. -/
theorem window_list : List.finRange (⟨4, ![1, 1, 2, 2]⟩ : Shape).numel
    = [⟨0, by decide⟩, ⟨1, by decide⟩, ⟨2, by decide⟩, ⟨3, by decide⟩] := by decide

theorem lo_zero (d : Fin 4) : (![0, 0, 0, 0] : Fin 4 → Nat) d = 0 := by
  match d with
  | ⟨0, _⟩ => rfl
  | ⟨1, _⟩ => rfl
  | ⟨2, _⟩ => rfl
  | ⟨3, _⟩ => rfl

/-- The operand coordinate the fold computes for window position (0, 0, a, b) — result coordinate times stride, plus
    the position, less the (absent) low padding — is `tap`'s. -/
theorem visit_coord (hH : 2 * Ho ≤ Hi) (hW : 2 * Wo ≤ Wi) (n : Fin N) (c : Fin C) (h : Fin Ho) (w : Fin Wo) (a b : Fin 2)
    (e : (⟨4, ![N, C, Ho, Wo]⟩ : Shape).rank = 4) (d : Fin 4) :
    (ix4 n c h w (Fin.cast e.symm d)).val * (![1, 1, 2, 2] : Fin 4 → Nat) d + (ix4 (0 : Fin 1) (0 : Fin 1) a b d).val
        - (![0, 0, 0, 0] : Fin 4 → Nat) d = (tap hH hW n c h w a b d).val := by
  match d with
  | ⟨0, _⟩ => show n.val * 1 + 0 - 0 = n.val; omega
  | ⟨1, _⟩ => show c.val * 1 + 0 - 0 = c.val; omega
  | ⟨2, _⟩ => show h.val * 2 + a.val - 0 = 2 * h.val + a.val; omega
  | ⟨3, _⟩ => show w.val * 2 + b.val - 0 = 2 * w.val + b.val; omega

theorem reduceWindow_pool_apply (f : α → α → α) (x : (⟨4, ![N, C, Hi, Wi]⟩ : Shape).Idx → α) {u : Shape} (init : u.Idx → α)
    (hw : (⟨4, ![N, C, Hi, Wi]⟩ : Shape).ReduceWindows (![1, 1, 2, 2] : Fin 4 → Nat) ![1, 1, 2, 2] ![0, 0, 0, 0] ![0, 0, 0, 0]
      ⟨4, ![N, C, Ho, Wo]⟩) (hu : 0 < u.numel) (hH : 2 * Ho ≤ Hi) (hW : 2 * Wo ≤ Wi)
    (n : Fin N) (c : Fin C) (h : Fin Ho) (w : Fin Wo) :
    Host.reduceWindow f ![1, 1, 2, 2] ![1, 1, 2, 2] ![0, 0, 0, 0] ![0, 0, 0, 0] x init hw hu (ix4 n c h w)
      = f (f (f (f (init (Shape.Idx.first hu)) (x (tap hH hW n c h w 0 0))) (x (tap hH hW n c h w 0 1)))
          (x (tap hH hW n c h w 1 0))) (x (tap hH hW n c h w 1 1)) := by
  unfold Host.reduceWindow
  dsimp only
  rw [window_list]
  simp only [List.foldl_cons, List.foldl_nil, window_pos ⟨0, by decide⟩ 0 0 rfl, window_pos ⟨1, by decide⟩ 0 1 rfl,
    window_pos ⟨2, by decide⟩ 1 0 rfl, window_pos ⟨3, by decide⟩ 1 1 rfl]
  refine congrArg₂ f (congrArg₂ f (congrArg₂ f (congrArg₂ f rfl ?_) ?_) ?_) ?_
  all_goals
    split
    · exact congrArg x (funext fun d => Fin.ext (visit_coord hH hW n c h w _ _ rfl d))
    · next hin =>
      exact absurd (fun d => ⟨by rw [lo_zero]; exact Nat.zero_le _, by
        rw [visit_coord hH hW n c h w _ _ rfl d]; exact (tap hH hW n c h w _ _ d).isLt⟩) hin

end Idealize.ShloMosaic.PoolWindow
-- ==== Proof.Spec.lean ====
/-
  The specification: non-overlapping 2 × 2 max pooling of a [32, 64, 224, 224] array.  Entry (n, c, h, w) of the result
  is the maximum, taken from a floor value `b`, of the four entries (n, c, 2h + a, 2w + b') with a, b' ∈ {0, 1}, combined
  in the order (0,0), (0,1), (1,0), (1,1).  On the extended reals `max` is commutative and associative, so any other
  order or grouping of the same four entries and the floor gives the same value (`pool_regroup`): that is the one law
  joining the two programs, and it needs no finiteness.
-/
import Idealize.ShloMosaic.PureOps.Ideal
import Idealize.ShloMosaic.Lib.ValueIdx
import proofs.«143398_j22308060135988_2_alg».proof.Proof.LibPoolWindow

noncomputable section

namespace Cert.Pool

open Idealize.ShloMosaic Idealize.ShloMosaic.ValueIdx Idealize.ShloMosaic.PoolWindow

/-- The operand's shape and the result's. -/
abbrev SIn : Shape := ⟨4, ![32, 64, 224, 224]⟩
abbrev SOut : Shape := ⟨4, ![32, 64, 112, 112]⟩

/-- The floor of the maximum: the f32 word of −∞, which is both the reference's initial value and the kernel's
    accumulator.  The same word stands on both sides, so its value is never needed. -/
abbrev floor : EReal := Ideal.ofBits .f32 0xFF800000#32

/-- The operand entry (n, c, 2h + a, 2w + b). -/
abbrev at2 (n : Fin 32) (c : Fin 64) (h : Fin 112) (w : Fin 112) (a b : Fin 2) : SIn.Idx :=
  tap (N := 32) (C := 64) (Hi := 224) (Wi := 224) (Ho := 112) (Wo := 112) (by decide) (by decide) n c h w a b

/-- The pooled value at explicit coordinates. -/
def poolAt (b : EReal) (X : SIn.Idx → EReal) (n : Fin 32) (c : Fin 64) (h : Fin 112) (w : Fin 112) : EReal :=
  max (max (max (max b (X (at2 n c h w 0 0))) (X (at2 n c h w 0 1))) (X (at2 n c h w 1 0))) (X (at2 n c h w 1 1))

/-- The pooled array. -/
def pool (b : EReal) (X : SIn.Idx → EReal) : SOut.Idx → EReal := fun j => poolAt b X (j 0) (j 1) (j 2) (j 3)

theorem pool_apply (b : EReal) (X : SIn.Idx → EReal) (n : Fin 32) (c : Fin 64) (h : Fin 112) (w : Fin 112) :
    pool b X (ix4 n c h w) = poolAt b X n c h w := rfl

/-- Pairing the two rows first and then the two columns, with the floor last — the kernel's grouping — is the same
    maximum: `max` is commutative and associative. -/
theorem pool_regroup (b x00 x01 x10 x11 : EReal) :
    max (max x00 x10) (max (max x01 x11) b) = max (max (max (max b x00) x01) x10) x11 := by
  simp only [max_assoc, max_comm, max_left_comm]

end Cert.Pool

end
-- ==== Proof.LibPadNone.lean ====
/-
  A `stablehlo.pad` that pads nothing — no low padding, no interior padding, the result of the operand's own
  shape — is the identity on the operand.  Generic in the shape and the element type.
-/
import Idealize.ShloMosaic.PureOps
import Idealize.ShloMosaic.Lib.KernelVsHost

namespace Idealize.ShloMosaic.PadNone

open Idealize.ShloMosaic

/-- With zero low and interior padding and an unchanged shape every result index lies inside the operand, at itself. -/
theorem pad_none {s : Shape} {α : Type} (lo hi interior : Fin s.rank → Nat) (x : s.Idx → α) {u : Shape} (v : u.Idx → α)
    (h : s.Pads lo hi interior s) (hu : 0 < u.numel) (hlo : ∀ a, lo a = 0) (hint : ∀ a, interior a = 0) :
    pad s lo hi interior x v h hu = x := by
  funext j
  refine pad_apply_of_inside lo hi interior x v h hu j j (fun a => ?_)
  rw [hlo a, hint a]
  show (j a).val = 0 + (j a).val * (0 + 1)
  omega

end Idealize.ShloMosaic.PadNone
-- ==== Proof.RefRead.lean ====
/-
  The reference read at an index.  Its padding pads nothing, so the padded array is the argument itself; its initial
  value is the literal −∞ broadcast to a scalar; and its 2 × 2, stride-2 window maximum at (n, c, h, w) is the left fold
  of `max` from that initial value over the entries (n, c, 2h + a, 2w + b) — which is the specification's `pool`,
  term for term.
-/
import proofs.«143398_j22308060135988_2_alg».proof.Proof.Gen.ReferenceIdeal.Read
import proofs.«143398_j22308060135988_2_alg».proof.Proof.Spec
import proofs.«143398_j22308060135988_2_alg».proof.Proof.LibPadNone

noncomputable section

namespace Cert.Pool.Ref

open Cert.ReferenceIdeal Cert.ReferenceIdeal.Gen Idealize.ShloMosaic Idealize.ShloMosaic.ValueIdx
open Idealize.ShloMosaic.PoolWindow Idealize.ShloMosaic.PadNone Cert.Pool

/-- The zero-width padding leaves the argument as it is. -/
theorem padded_eq (X : SIn.Idx → EReal) : Cert.ReferenceIdeal.Read.val_main_v0 (F := Ideal) X = X :=
  pad_none _ _ _ X _ _ _ (fun a => by match a with | ⟨0, _⟩ => rfl | ⟨1, _⟩ => rfl | ⟨2, _⟩ => rfl | ⟨3, _⟩ => rfl)
    (fun a => by match a with | ⟨0, _⟩ => rfl | ⟨1, _⟩ => rfl | ⟨2, _⟩ => rfl | ⟨3, _⟩ => rfl)

/-- The window fold starts from the literal −∞. -/
theorem init_eq : Cert.ReferenceIdeal.Read.val_main_v1 (F := Ideal) (Shape.Idx.first h_S_) = floor := by
  rw [Cert.ReferenceIdeal.Read.val_main_v1_apply, Cert.ReferenceIdeal.Read.val_main_cst_apply]
  rfl

/-- The reference's result is the pooled argument. -/
theorem result_eq (X : SIn.Idx → EReal) : Cert.ReferenceIdeal.Read.val_main_v2 (F := Ideal) X = pool floor X := by
  funext j
  obtain ⟨n, c, h, w, rfl⟩ : ∃ (n : Fin 32) (c : Fin 64) (h : Fin 112) (w : Fin 112), j = ix4 n c h w :=
    ⟨j 0, j 1, j 2, j 3, eq_ix4 j⟩
  rw [pool_apply]
  unfold Cert.ReferenceIdeal.Read.val_main_v2
  refine (reduceWindow_pool_apply (N := 32) (C := 64) (Hi := 224) (Wi := 224) (Ho := 112) (Wo := 112)
    FloatOps.maximumf _ _ _ _ (by decide) (by decide) n c h w).trans ?_
  rw [padded_eq, init_eq]
  rfl

end Cert.Pool.Ref

end
-- ==== Proof.KernelBody.lean ====
/-
  The kernel body read at an index.  The body loads rows 0 and 1 of every row pair of its [32, 112, 2, 224] block, takes
  their entrywise maximum, splits the 224 lanes into 112 pairs and takes the maximum of each pair from −∞.  So entry
  (p, h, w) of what it stores is the maximum of the block's entries (p, h, a, 2w + k), a, k ∈ {0, 1}, and −∞, grouped
  rows first.
-/
import proofs.«143398_j22308060135988_2_alg».proof.Proof.Gen.KernelIdeal.Frame
import proofs.«143398_j22308060135988_2_alg».proof.Proof.Spec
import Idealize.ShloMosaic.Lib.Pipeline.Value
import Idealize.ShloMosaic.Lib.ValueIdx
import Idealize.ShloMosaic.PureOps.Ideal.Laws

noncomputable section

namespace Cert.Pool.Kern

open Cert.KernelIdeal Cert.KernelIdeal.Gen Idealize.ShloMosaic Idealize.ShloMosaic.ValueIdx Cert.Pool

/-- Lane `2w + k`: member `k` of lane pair `w`. -/
def lane (w : Fin 112) (k : Fin 2) : Fin 224 := ⟨2 * w.val + k.val, by omega⟩

/-- A maximum folded over a pair. -/
theorem fold_max_pair (b : EReal) (g : Fin 2 → EReal) :
    (Finset.univ : Finset (Fin 2)).fold max b g = max (g 0) (max (g 1) b) := by
  rw [show (Finset.univ : Finset (Fin 2)) = insert 0 {1} from by decide, Finset.fold_insert (by decide),
    Finset.fold_singleton]

/-- A row block [32, 112, 1, 224] viewed as [32, 112, 224]: the unit axis goes. -/
theorem row_apply (v : Vec Ideal S32x112x1x224 .f32) (p : Fin 32) (h : Fin 112) (l : Fin 224) :
    shapeCast S32x112x224 v shapeCasts_S32x112x1x224_S32x112x224 (ix3 p h l) = v (ix4 p h (0 : Fin 1) l) :=
  shapeCast_apply v _ (ix3 p h l) (ix4 p h (0 : Fin 1) l) (by
    rw [Shape.rowMajor_val_four, Shape.rowMajor_val_three]
    show ((p.val * 112 + h.val) * 1 + 0) * 224 + l.val = (p.val * 112 + h.val) * 224 + l.val
    omega)

/-- [32, 112, 224] viewed as [32, 112, 112, 2]: entry (p, h, w, k) is lane 2w + k. -/
theorem pair_apply (v : FVec Ideal S32x112x224 .f32) (p : Fin 32) (h : Fin 112) (w : Fin 112) (k : Fin 2) :
    shapeCast S32x112x112x2 v shapeCasts_S32x112x224_S32x112x112x2 (ix4 p h w k) = v (ix3 p h (lane w k)) :=
  shapeCast_apply v _ (ix4 p h w k) (ix3 p h (lane w k)) (by
    rw [Shape.rowMajor_val_four, Shape.rowMajor_val_three]
    show (p.val * 112 + h.val) * 224 + (2 * w.val + k.val) = ((p.val * 112 + h.val) * 112 + w.val) * 2 + k.val
    omega)

/-- The reduced axis put back: result index (p, h, w) with `k` on the pair axis. -/
theorem lift_eq (p : Fin 32) (h : Fin 112) (w : Fin 112) (k : Fin 2) :
    reduces_S32x112x112x2_S32x112x112.lift (ix3 p h w) k = ix4 p h w k := by
  funext d
  apply Fin.ext
  match d with
  | ⟨0, _⟩ => rfl
  | ⟨1, _⟩ => rfl
  | ⟨2, _⟩ => rfl
  | ⟨3, _⟩ => rfl

/-- The maximum over a lane pair, from −∞: the reduction over the last axis of a [32, 112, 112, 2] value. -/
theorem lanes_max (src : FVec Ideal S32x112x112x2 .f32) (hφ : FKind.Formats .f32)
    (hacc : (0xFF800000#32 : BitVec 32) = FKind.maximumf.neutral .f32 hφ) (p : Fin 32) (h : Fin 112) (w : Fin 112) :
    multiReduction .maximumf [3] S32x112x112 src 0xFF800000#32 reduces_S32x112x112x2_S32x112x112 hφ hacc (ix3 p h w)
      = max (src (ix4 p h w (0 : Fin 2))) (max (src (ix4 p h w (1 : Fin 2))) floor) := by
  refine (Ideal.multiReduction_maximumf_single src 0xFF800000#32 reduces_S32x112x112x2_S32x112x112 hφ hacc
    (ix3 p h w)).trans ?_
  refine (fold_max_pair _ _).trans ?_
  show max (src (reduces_S32x112x112x2_S32x112x112.lift (ix3 p h w) (0 : Fin 2)))
    (max (src (reduces_S32x112x112x2_S32x112x112.lift (ix3 p h w) (1 : Fin 2))) _) = _
  rw [lift_eq, lift_eq]
  rfl

/-- The body's stored value at (p, h, w), from the two loaded row blocks. -/
theorem pay_apply (v0 v2 : Vec Ideal S32x112x1x224 .f32) (p : Fin 32) (h : Fin 112) (w : Fin 112) :
    k0_pay1 (F := Ideal) v0 v2 (ix3 p h w)
      = max (max (v0 (ix4 p h (0 : Fin 1) (lane w 0))) (v2 (ix4 p h (0 : Fin 1) (lane w 0))))
          (max (max (v0 (ix4 p h (0 : Fin 1) (lane w 1))) (v2 (ix4 p h (0 : Fin 1) (lane w 1)))) floor) := by
  dsimp only [k0_pay1]
  refine (lanes_max _ _ _ p h w).trans ?_
  rw [pair_apply, pair_apply, maximumf_apply, maximumf_apply, row_apply, row_apply, row_apply, row_apply]

/-- The offsets of the store's rectangle are zero. -/
theorem hz3 : (![0, 0, 0] : Fin 3 → Nat) = fun _ => 0 :=
  funext fun a => by match a with | ⟨0, _⟩ => rfl | ⟨1, _⟩ => rfl | ⟨2, _⟩ => rfl

/-- Row `a` of a row pair, loaded: entry (p, h, 0, l) of the load is entry (p, h, a, l) of the block. -/
theorem ld_row0 (x0 : Vec Ideal S32x112x2x224 .f32) (p : Fin 32) (h : Fin 112) (l : Fin 224) :
    View.ld x0 r0_0 (ix4 p h (0 : Fin 1) l) = x0 (ix4 p h (0 : Fin 2) l) := by
  show x0 (r0_0.emb (ix4 p h (0 : Fin 1) l)) = _
  refine congrArg x0 (funext fun d => Fin.ext ?_)
  match d with
  | ⟨0, _⟩ => show 0 + 1 * p.val = p.val; omega
  | ⟨1, _⟩ => show 0 + 1 * h.val = h.val; omega
  | ⟨2, _⟩ => show 0 + 1 * 0 = 0; omega
  | ⟨3, _⟩ => show 0 + 1 * l.val = l.val; omega

theorem ld_row1 (x0 : Vec Ideal S32x112x2x224 .f32) (p : Fin 32) (h : Fin 112) (l : Fin 224) :
    View.ld x0 r0_1 (ix4 p h (0 : Fin 1) l) = x0 (ix4 p h (1 : Fin 2) l) := by
  show x0 (r0_1.emb (ix4 p h (0 : Fin 1) l)) = _
  refine congrArg x0 (funext fun d => Fin.ext ?_)
  match d with
  | ⟨0, _⟩ => show 0 + 1 * p.val = p.val; omega
  | ⟨1, _⟩ => show 0 + 1 * h.val = h.val; omega
  | ⟨2, _⟩ => show 1 + 1 * 0 = 1; omega
  | ⟨3, _⟩ => show 0 + 1 * l.val = l.val; omega

/-- WHAT THE BODY LEAVES in the output block, from the input block: at (p, h, w) the maximum over the 2 × 2 patch
    rows {0, 1} of row pair h, lanes {2w, 2w + 1}, and −∞. -/
theorem body_apply (x0 : Vec Ideal S32x112x2x224 .f32) (p : Fin 32) (h : Fin 112) (w : Fin 112) :
    out0_1 (F := Ideal) x0 (ix3 p h w)
      = max (max (x0 (ix4 p h (0 : Fin 2) (lane w 0))) (x0 (ix4 p h (1 : Fin 2) (lane w 0))))
          (max (max (x0 (ix4 p h (0 : Fin 2) (lane w 1))) (x0 (ix4 p h (1 : Fin 2) (lane w 1)))) floor) := by
  unfold out0_1
  rw [View.canon_unit_zero hz3]
  refine (pay_apply _ _ p h w).trans ?_
  rw [ld_row0, ld_row0, ld_row1, ld_row1]

end Cert.Pool.Kern

end
-- ==== Proof.KernelArray.lean ====
/-
  From the body at one grid point to the kernel program's result.
  Before the region the host pads the argument by nothing and reshapes it twice, row-major: (n, c) are flattened to
  one axis N = 64 n + c and each row r = 2h + a becomes the pair (h, a).  Grid point t stages rows 32 t … 32 t + 31 of
  that array, and the body leaves in the output block the 2 × 2 maxima of those rows; the 64 output blocks tile the
  [2048, 112, 112] result, which is therefore the pooled array with (n, c) flattened.  The host line after the region
  reshapes it back to [32, 64, 112, 112].
-/
import proofs.«143398_j22308060135988_2_alg».proof.Proof.KernelBody
import proofs.«143398_j22308060135988_2_alg».proof.Proof.LibPadNone
import Idealize.ShloMosaic.Lib.StableHlo.Run

noncomputable section

namespace Cert.Pool.Kern

open Cert.KernelIdeal Cert.KernelIdeal.Gen Idealize.ShloMosaic Idealize.ShloMosaic.TcCoe Idealize.SL.Sem
open Idealize.ShloMosaic.ValueIdx Idealize.ShloMosaic.PadNone Idealize.ShloMosaic.StableHlo Cert.Pool
open Idealize.ShloMosaic.Pipeline (Dat)

/-! ## The two row-major reshapes, read at an index -/

/-- The operand the region stages, from the argument: (n, c) flattened, each pair of rows an axis of its own. -/
def split (X : SIn.Idx → EReal) : S2048x112x2x224.Idx → EReal :=
  shapeCast S2048x112x2x224 (shapeCast S2048x224x224 X shapeCasts_S32x64x224x224_S2048x224x224)
    shapeCasts_S2048x224x224_S2048x112x2x224

/-- Entry (N, h, a, 2w + k) of it is the argument's entry (N / 64, N % 64, 2h + a, 2w + k). -/
theorem split_at (X : SIn.Idx → EReal) (N : Fin 2048) (h : Fin 112) (w : Fin 112) (a k : Fin 2) :
    split X (ix4 N h a (lane w k)) = X (at2 ⟨N.val / 64, by omega⟩ ⟨N.val % 64, Nat.mod_lt _ (by decide)⟩ h w a k) := by
  unfold split
  refine (shapeCast_apply _ _ (ix4 N h a (lane w k)) (ix3 N (⟨2 * h.val + a.val, by omega⟩ : Fin 224) (lane w k)) (by
    rw [Shape.rowMajor_val_three, Shape.rowMajor_val_four]
    show (N.val * 224 + (2 * h.val + a.val)) * 224 + (lane w k).val
      = ((N.val * 112 + h.val) * 2 + a.val) * 224 + (lane w k).val
    omega)).trans ?_
  exact shapeCast_apply _ _ _ _ (by
    rw [Shape.rowMajor_val_four, Shape.rowMajor_val_three]
    show ((N.val / 64 * 64 + N.val % 64) * 224 + (2 * h.val + a.val)) * 224 + (2 * w.val + k.val)
      = (N.val * 224 + (2 * h.val + a.val)) * 224 + (lane w k).val
    have : (lane w k).val = 2 * w.val + k.val := rfl
    omega)

/-- A [32, 64, 112, 112] array with (n, c) flattened: what the region's result array holds of the pooled array. -/
def flat (Y : SOut.Idx → EReal) : S2048x112x112.Idx → EReal :=
  shapeCast S2048x112x112 Y (by decide : SOut.ShapeCasts S2048x112x112)

theorem flat_apply (Y : SOut.Idx → EReal) (N : Fin 2048) (h : Fin 112) (w : Fin 112) :
    flat Y (ix3 N h w) = Y (ix4 ⟨N.val / 64, by omega⟩ ⟨N.val % 64, Nat.mod_lt _ (by decide)⟩ h w) :=
  shapeCast_apply _ _ _ _ (by
    rw [Shape.rowMajor_val_four, Shape.rowMajor_val_three]
    show ((N.val / 64 * 64 + N.val % 64) * 112 + h.val) * 112 + w.val = (N.val * 112 + h.val) * 112 + w.val
    omega)

/-- Reshaping it back gives the array. -/
theorem unflat (Y : SOut.Idx → EReal) :
    shapeCast S32x64x112x112 (flat Y) shapeCasts_S2048x112x112_S32x64x112x112 = Y :=
  shapeCast_shapeCast Y _ _

/-! ## One grid point -/

/-- If the input block is rows 32 b … 32 b + 31 of the staged operand, the body leaves the same rows of the flattened
    pooled array: the two groupings of the 2 × 2 patch's maximum agree. -/
theorem point_eq (X : SIn.Idx → EReal) (b : Nat) (hb : b < 64) (x0 : Vec Ideal S32x112x2x224 .f32)
    (hx : ∀ (p : Fin 32) (h : Fin 112) (a : Fin 2) (l : Fin 224),
      x0 (ix4 p h a l) = split X (ix4 (⟨b * 32 + p.val, by omega⟩ : Fin 2048) h a l))
    (p : Fin 32) (h : Fin 112) (w : Fin 112) :
    out0_1 (F := Ideal) x0 (ix3 p h w) = flat (pool floor X) (ix3 (⟨b * 32 + p.val, by omega⟩ : Fin 2048) h w) := by
  rw [body_apply, hx, hx, hx, hx, split_at, split_at, split_at, split_at, flat_apply, pool_apply]
  unfold poolAt
  exact pool_regroup _ _ _ _ _

/-- The same with the block index and the array index as the pipeline spells them. -/
theorem block_eq (X : SIn.Idx → EReal) (b : Nat) (hb : b < 64) (x0 : Vec Ideal S32x112x2x224 .f32)
    (hx : ∀ (p : Fin 32) (h : Fin 112) (a : Fin 2) (l : Fin 224),
      x0 (ix4 p h a l) = split X (ix4 (⟨b * 32 + p.val, by omega⟩ : Fin 2048) h a l))
    (y : S32x112x112.Idx) (i : S2048x112x112.Idx) (h0 : (i 0).val = b * 32 + (y 0).val) (h1 : (i 1).val = (y 1).val)
    (h2 : (i 2).val = (y 2).val) : out0_1 (F := Ideal) x0 y = flat (pool floor X) i := by
  obtain ⟨p, h, w, rfl⟩ : ∃ (p : Fin 32) (h : Fin 112) (w : Fin 112), y = ix3 p h w := ⟨y 0, y 1, y 2, eq_ix3 y⟩
  have hi : i = ix3 (⟨b * 32 + p.val, by omega⟩ : Fin 2048) h w := by
    funext d
    apply Fin.ext
    match d with
    | ⟨0, _⟩ => exact h0
    | ⟨1, _⟩ => exact h1
    | ⟨2, _⟩ => exact h2
  rw [hi]
  exact point_eq X b hb x0 hx p h w

variable (m : (ℓ : Loc nD τ sig) → Buf (Elt Ideal) ℓ) (ρ : Dev nD → PrngReg)

/-! ## The operand as the region finds it -/

/-- The host lines before the region leave, in the staged operand's buffer, the argument reshaped (the padding
    pads nothing). -/
theorem V_main_v2 (c : Dev nD) :
    (V m c main_v2 : S2048x112x2x224.Idx → EReal) = split (m ((c : Thread nD τ).loc main_arg0)) := by
  have e : (V m c main_v2 : S2048x112x2x224.Idx → EReal)
      = shapeCast S2048x112x2x224 (shapeCast S2048x224x224
          (pad S32x64x224x224 ![0, 0, 0, 0] ![0, 0, 0, 0] ![0, 0, 0, 0] (m ((c : Thread nD τ).loc main_arg0))
            (sitofp (F := Ideal) .f32 (constantI S_ 32 0#32)) pads_S32x64x224x224_S32x64x224x224_000_000_000_000 h_S_)
          shapeCasts_S32x64x224x224_S2048x224x224) shapeCasts_S2048x224x224_S2048x112x2x224 := by
    dsimp only [Gen.V, Gen.V0]
    simp only [Gen.hostOps0, Gen.hostOps0_1, Gen.hostOps0_2, List.flatten_cons, List.flatten_nil, List.append_nil,
      List.cons_append, List.nil_append]
    after_results
    rfl
  have hp : pad S32x64x224x224 ![0, 0, 0, 0] ![0, 0, 0, 0] ![0, 0, 0, 0] (m ((c : Thread nD τ).loc main_arg0))
      (sitofp (F := Ideal) .f32 (constantI S_ 32 0#32)) pads_S32x64x224x224_S32x64x224x224_000_000_000_000 h_S_
      = m ((c : Thread nD τ).loc main_arg0) :=
    pad_none (s := S32x64x224x224) (α := EReal) _ _ _ _ _ _ _
      (fun a => by match a with | ⟨0, _⟩ => rfl | ⟨1, _⟩ => rfl | ⟨2, _⟩ => rfl | ⟨3, _⟩ => rfl)
      (fun a => by match a with | ⟨0, _⟩ => rfl | ⟨1, _⟩ => rfl | ⟨2, _⟩ => rfl | ⟨3, _⟩ => rfl)
  rw [e, hp]
  rfl

/-! ## What each point writes back, the cover, the array after the run -/

/-- The printed index maps, decided over the 64 points: both windows move along their leading axis together and stay
    at block 0 on the others. -/
theorem idx_facts : ∀ t : Fin cfg0.N, win0_0.index t (0 : Fin 4) = win0_1.index t (0 : Fin 3)
    ∧ win0_0.index t (1 : Fin 4) = 0 ∧ win0_0.index t (2 : Fin 4) = 0 ∧ win0_0.index t (3 : Fin 4) = 0
    ∧ win0_1.index t (1 : Fin 3) = 0 ∧ win0_1.index t (2 : Fin 3) = 0 ∧ win0_1.index t (0 : Fin 3) < 64 :=
  (by decide +kernel : ∀ t : Fin grid0.N, _)

/-- Every block of 32 leading rows of the result is some point's. -/
theorem idx_onto : ∀ q : Fin 64, ∃ t : Fin cfg0.N, win0_1.index t = ![q.val, 0, 0] :=
  (by decide +kernel : ∀ q : Fin 64, ∃ t : Fin grid0.N, win0_1.index t = ![q.val, 0, 0])

/-- WHAT POINT `t` WRITES BACK is block `t` of the flattened pooled argument. -/
theorem flushed_eq (c : Dev nD) (t : Fin cfg0.N) :
    (dats m 0 c).flushed 1 t
      = ((cfg0.win 1).blk t).view.read (Elt Ideal) (flat (pool floor (m ((c : Thread nD τ).loc main_arg0)))) := by
  show (cfg0.win 1).cut (grid0.coords t) ((dats m 0 c).after 1 t) = _
  rw [after0_1]
  obtain ⟨e0, e1, e2, e3, e4, e5, e6⟩ := idx_facts t
  funext y
  show out0_1 (iblk m c 0 t) y = flat (pool floor (m ((c : Thread nD τ).loc main_arg0))) (((cfg0.win 1).blk t).view.emb y)
  refine block_eq _ (win0_1.index t (0 : Fin 3)) e6 (iblk m c 0 t) (fun p h a l => ?_) y _ ?_ ?_ ?_
  · show V m c main_v2 (((cfg0.win 0).blk t).view.emb (ix4 p h a l)) = _
    rw [V_main_v2 m c]
    refine congrArg (split _) (funext fun d => Fin.ext ?_)
    match d with
    | ⟨0, _⟩ => show win0_0.index t (0 : Fin 4) * 32 + 1 * p.val = win0_1.index t (0 : Fin 3) * 32 + p.val; omega
    | ⟨1, _⟩ => show win0_0.index t (1 : Fin 4) * 112 + 1 * h.val = h.val; omega
    | ⟨2, _⟩ => show win0_0.index t (2 : Fin 4) * 2 + 1 * a.val = a.val; omega
    | ⟨3, _⟩ => show win0_0.index t (3 : Fin 4) * 224 + 1 * l.val = l.val; omega
  · show win0_1.index t (0 : Fin 3) * 32 + 1 * (y 0).val = win0_1.index t (0 : Fin 3) * 32 + (y 0).val; omega
  · show win0_1.index t (1 : Fin 3) * 112 + 1 * (y 1).val = (y 1).val; omega
  · show win0_1.index t (2 : Fin 3) * 112 + 1 * (y 2).val = (y 2).val; omega

/-- An index of the result array is in point `t`'s block iff each coordinate is in the block's range on its axis. -/
theorem mem_blk (t : Fin cfg0.N) (i : S2048x112x112.Idx) :
    i ∈ ((cfg0.win 1).blk t).view.set ↔ ∀ a : Fin 3, win0_1.index t a * S32x112x112.size a ≤ (i a).val
      ∧ (i a).val < win0_1.index t a * S32x112x112.size a + S32x112x112.size a := by
  show i ∈ ((View.whole main_v3).slice (win0_1.rect t)).set ↔ _
  rw [View.set_slice_whole, Rect.mem_set_unit]
  exact Iff.rfl

/-- The 64 blocks of 32 leading rows cover the result array: row N is in block N / 32. -/
theorem cover (i : S2048x112x112.Idx) :
    ∃ t : Fin cfg0.N, (cfg0.win 1).flush t = true ∧ i ∈ ((cfg0.win 1).blk t).view.set := by
  have hi0 : (i 0).val < 2048 := (i 0).isLt
  have hi1 : (i 1).val < 112 := (i 1).isLt
  have hi2 : (i 2).val < 112 := (i 2).isLt
  obtain ⟨t, ht⟩ := idx_onto ⟨(i 0).val / 32, by omega⟩
  have q0 : win0_1.index t (0 : Fin 3) = (i 0).val / 32 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 32 ≤ (i 0).val ∧ (i 0).val < win0_1.index t (0 : Fin 3) * 32 + 32
    omega
  | ⟨1, _⟩ =>
    show win0_1.index t (1 : Fin 3) * 112 ≤ (i 1).val ∧ (i 1).val < win0_1.index t (1 : Fin 3) * 112 + 112
    omega
  | ⟨2, _⟩ =>
    show win0_1.index t (2 : Fin 3) * 112 ≤ (i 2).val ∧ (i 2).val < win0_1.index t (2 : Fin 3) * 112 + 112
    omega

/-- THE RESULT ARRAY of the region after the run: the pooled argument with (n, c) flattened. -/
theorem final (c : Dev nD) :
    (dats m 0 c).arrAt 1 cfg0.N = flat (pool floor (m ((c : Thread nD τ).loc main_arg0))) :=
  (dats m 0 c).arrAt_eq_of_cover 1 _ (fun t _ => flushed_eq m c t) cover

/-! ## The host line after the region, and the run -/

/-- The reshape after the region leaves the pooled argument in the program's result buffer. -/
theorem tail_eq (c : Dev nD) :
    (Pipeline.afterTail₀ cfgs (dats m) 0 (V0 m) [hostOps1] c main_v4 : SOut.Idx → EReal)
      = pool floor (m ((c : Thread nD τ).loc main_arg0)) := by
  unfold Pipeline.afterTail₀
  show StableHlo.after hostOps1 _ (Proc.devRef .tc main_v4) = _
  after_results
  show shapeCast S32x64x112x112 (Pipeline.withArrays spec0 c (V0 m c) (fun w => (dats m 0 c).arrAt w cfg0.N)
    (Proc.devRef .tc main_v3)) shapeCasts_S2048x112x112_S32x64x112x112 = _
  have hw : Pipeline.withArrays spec0 c (V0 m c) (fun w => (dats m 0 c).arrAt w cfg0.N) (Proc.devRef .tc main_v3)
      = flat (pool floor (m ((c : Thread nD τ).loc main_arg0))) :=
    (Pipeline.withArrays_arr spec0 launch0.win.arr_inj c _ _ 1).trans (final m c)
  rw [hw]
  exact unflat _

/-- THE RUN of the idealized kernel program: every weakly fair execution terminates with the result buffer at the
    pooled argument and the argument unchanged. -/
theorem run : θ_run defs (onTc (τ := τ) (main (F := Ideal))) ⟨m, fun _ => 0, ρ⟩ fun r => ∀ c : Dev nD,
      r.2.mem ((c.tc : Thread nD τ).loc main_v4) = pool floor (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c)⟩)
    (run_main m ρ)

end Cert.Pool.Kern

end
-- ==== Proof.lean ====
/- `Cert.Claim`: a Pallas kernel for non-overlapping 2 × 2 max pooling of a float32[32, 64, 224, 224] array against
   `lax.reduce_window` with body `max`, initial value −∞, window (1, 1, 2, 2), strides (1, 1, 2, 2) and no padding.

   Both idealized programs compute, at (n, c, h, w), the maximum over the extended reals of the four argument entries
   (n, c, 2h + a, 2w + b), a, b ∈ {0, 1}, and −∞ (`Cert.Pool.pool`).  The reference pads the argument by nothing and
   folds `max` over the window from −∞, rows outermost.  The kernel program reshapes the argument row-major to
   [2048, 112, 2, 224] — (n, c) flattened, each pair of rows an axis —, at each of 64 grid points takes 32 leading rows,
   forms the entrywise maximum of the two rows of every pair, then the maximum of every pair of neighbouring lanes from
   −∞, writes the [32, 112, 112] block back, and finally reshapes the [2048, 112, 112] result to [32, 64, 112, 112].  The
   two groupings of the five values agree because `max` is commutative and associative; no finiteness of the input is
   used, and the word of −∞ is the same on both sides and never evaluated.

   The three frames are the generated frame certificates (the reference's is its generated run with the result
   dropped); no operation of the kernel program is rewritten in its idealization, so `preserves` is `True`. -/
import proofs.«143398_j22308060135988_2_alg».proof.Defs
import proofs.«143398_j22308060135988_2_alg».proof.Proof.Gen.Kernel
import proofs.«143398_j22308060135988_2_alg».proof.Proof.Gen.Kernel.Skeleton
import proofs.«143398_j22308060135988_2_alg».proof.Proof.Gen.Kernel.Launch
import proofs.«143398_j22308060135988_2_alg».proof.Proof.Gen.Kernel.Points
import proofs.«143398_j22308060135988_2_alg».proof.Proof.Gen.Kernel.Frame
import proofs.«143398_j22308060135988_2_alg».proof.Proof.Gen.KernelIdeal
import proofs.«143398_j22308060135988_2_alg».proof.Proof.Gen.KernelIdeal.Skeleton
import proofs.«143398_j22308060135988_2_alg».proof.Proof.Gen.KernelIdeal.Launch
import proofs.«143398_j22308060135988_2_alg».proof.Proof.Gen.KernelIdeal.Points
import proofs.«143398_j22308060135988_2_alg».proof.Proof.Gen.KernelIdeal.Frame
import proofs.«143398_j22308060135988_2_alg».proof.Proof.Gen.ReferenceIdeal
import proofs.«143398_j22308060135988_2_alg».proof.Proof.Gen.ReferenceIdeal.Run
import proofs.«143398_j22308060135988_2_alg».proof.Proof.Gen.ReferenceIdeal.Read
import proofs.«143398_j22308060135988_2_alg».proof.Proof.Gen.Pre_finite_inputs
import proofs.«143398_j22308060135988_2_alg».proof.Proof.RefRead
import proofs.«143398_j22308060135988_2_alg».proof.Proof.KernelArray
import Idealize.ShloMosaic.Adequacy
import Idealize.ShloMosaic.Init

noncomputable section

namespace Cert.Proof

open Idealize.ShloMosaic Idealize.SL.Sem

/-- The word-level kernel program runs and keeps its argument. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the pooled argument in their result: the kernel program by its run read through the
    blocks, the reference by its run read at an index, from arguments that agree. -/
theorem algebraic : Cert.algebraic_KernelIdeal_ReferenceIdeal := by
  intro m ρ m' ρ' _ hagree
  refine ⟨fun c => Cert.Pool.pool Cert.Pool.floor
      (m ((c.tc : Thread Cert.KernelIdeal.nD Cert.KernelIdeal.τ).loc Cert.KernelIdeal.main_arg0)),
    Cert.Pool.Kern.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.Pool.Ref.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
